-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2048x512 : Shape := ⟨2, ![2048, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S65536x512 .f32) (main_arg1 : FVec F S2048x512 .f32) (main_arg2 : FVec F S2048x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S65536x512 : Shape := ⟨2, ![65536, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S2048x512, .bf16⟩
  | .hbm, ⟨14, _⟩ => ⟨S512x2048, .bf16⟩
  | .hbm, ⟨15, _⟩ => ⟨S2048x512, .bf16⟩
  | .hbm, ⟨16, _⟩ => ⟨S65536x512, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bitsLt_bf16_f32 : FTy.bits .bf16 < FTy.bits .f32
  transposes_S2048x512_S512x2048_1_0 : S2048x512.Transposes [1, 0] S512x2048
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  broadcasts_S512x1_S512x2048 : S512x1.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S65536x512.size a
  hwx0_3 : ∀ i : grid0.Coords, EltTy.bits .f32 = 32 ∨ (Rect.block (s := S65536x512) S512x512.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S2048x512 : Shape := ⟨2, ![2048, 512]⟩
abbrev S_ : Shape := ⟨0, ![]⟩
abbrev S65536 : Shape := ⟨1, ![65536]⟩
abbrev S65536x1 : Shape := ⟨2, ![65536, 1]⟩
abbrev S2048 : Shape := ⟨1, ![2048]⟩
abbrev S2048x1 : Shape := ⟨2, ![2048, 1]⟩
abbrev S65536x2048 : Shape := ⟨2, ![65536, 2048]⟩

abbrev nBuf : Space → Nat
  | .hbm => 39
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S2048x512, .f32⟩
  | .hbm, ⟨3, _⟩ => ⟨S65536x512, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x512, .f32⟩
  | .hbm, ⟨12, _⟩ => ⟨S65536x512, .f32⟩
  | .hbm, ⟨13, _⟩ => ⟨S2048x512, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S65536x2048, .f32⟩
  | .hbm, ⟨24, _⟩ => ⟨S_, .f32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S65536x1, .f32⟩
  | .hbm, ⟨30, _⟩ => ⟨S65536x2048, .f32⟩
  | .hbm, ⟨31, _⟩ => ⟨S65536x2048, .f32⟩
  | .hbm, ⟨32, _⟩ => ⟨S65536x2048, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S65536x2048, .f32⟩
  | .hbm, ⟨37, _⟩ => ⟨S65536x2048, .f32⟩
  | .hbm, ⟨38, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  reducesTo_S65536x2048_S65536_d1 : S65536x2048.ReducesTo [1] S65536
  bcast_S_S65536 : S_.BroadcastsInDim S65536 (![] : Fin 0 → Fin S65536.rank)
  bcast_S65536x1_S65536x2048_0_1 : S65536x1.BroadcastsInDim S65536x2048 (![0, 1] : Fin 2 → Fin S65536x2048.rank)
  dot_S65536x512_S2048x512_S65536x2048_1_1_0_0_n_n_wf : DotDims.WF S65536x512 S2048x512 S65536x2048 [1] [1] [0] [0] [] []
  dot_S65536x2048_S2048x512_S65536x512_1_0_0_1_n_n_wf : DotDims.WF S65536x2048 S2048x512 S65536x512 [1] [0] [0] [1] [] []

variable [Facts₀]

def dot_S65536x512_S2048x512_S65536x2048_1_1_0_0_n_n : DotDims S65536x512 S2048x512 S65536x2048 where
  lhsContracting := [1]
  rhsContracting := [1]
  lhsNonContracting := [0]
  rhsNonContracting := [0]
  lhsBatch := []
  rhsBatch := []
  wf := dot_S65536x512_S2048x512_S65536x2048_1_1_0_0_n_n_wf
def dot_S65536x2048_S2048x512_S65536x512_1_0_0_1_n_n : DotDims S65536x2048 S2048x512 S65536x512 where
  lhsContracting := [1]
  rhsContracting := [0]
  lhsNonContracting := [0]
  rhsNonContracting := [1]
  lhsBatch := []
  rhsBatch := []
  wf := dot_S65536x2048_S2048x512_S65536x512_1_0_0_1_n_n_wf

class Facts : Prop extends Facts₀ where

variable [Facts]
-- ==== Proof.Softmax.lean ====
/-
  The arithmetic of one query row, on the extended reals, with no program in sight.

  A row is scaled to unit length (its length clamped below by a small positive constant), scored against every
  stored key by a dot product, and the scores are turned into weights `exp (score - peak)`, `peak` the largest
  score. Two ways of finishing are compared: divide the weighted sum of the value rows by the total weight
  (`foldedAttn`), or divide every weight by the total first and then take the weighted sum (`softAttn`).

  When every score is a real number the peak is one of the scores, so it is real, every weight is `exp` of a real,
  so it is a positive real, and the total weight `L` is a positive real. Dividing by `L` is then multiplying by the
  nonnegative real `1 / L`, and a nonnegative real factor moves through a finite sum of extended reals whatever
  the summands are (the value rows need not be finite). That is the whole law.
-/
import Idealize.ShloMosaic.PureOps.Ideal
import Idealize.ShloMosaic.PureOps.Ideal.Laws

noncomputable section

namespace Cert.MemAttn

open Idealize.ShloMosaic

variable {ι κ : Type} [Fintype ι] [Fintype κ]

/-! ## Finite sums and folds of real numbers stay real -/

/-- A finite sum of real numbers, taken in the extended reals, is the real sum. -/
theorem sum_coe {α : Type} (s : Finset α) (f : α → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the real maximum. -/
theorem coe_max (a b : ℝ) : ((max a b : ℝ) : EReal) = max (a : EReal) (b : EReal) :=
  EReal.coe_strictMono.monotone.map_max

/-- The largest of finitely many (at least one) real numbers, folded from `-∞`, is a real number. -/
theorem fold_max_coe {α : Type} (s : Finset α) (hs : s.Nonempty) (f : α → ℝ) :
    ∃ r : ℝ, s.fold max (⊥ : EReal) (fun i => (f i : EReal)) = (r : EReal) := by
  classical
  induction hs using Finset.Nonempty.cons_induction with
  | singleton a => exact ⟨f a, by simp⟩
  | cons a s ha _ ih =>
    obtain ⟨r, hr⟩ := ih
    refine ⟨max (f a) r, ?_⟩
    rw [Finset.fold_cons, hr]
    exact (coe_max _ _).symm

/-- A nonnegative real factor moves through a finite sum of extended reals. -/
theorem sum_mul_coe {α : Type} (s : Finset α) (a : α → EReal) {t : ℝ} (ht : 0 ≤ t) :
    (∑ i ∈ s, a i) * (t : EReal) = ∑ i ∈ s, a i * (t : EReal) := by
  classical
  induction s using Finset.induction_on with
  | empty => simp
  | insert b s hb ih =>
    rw [Finset.sum_insert hb, Finset.sum_insert hb,
      EReal.right_distrib_of_nonneg_of_ne_top (EReal.coe_nonneg.mpr ht) (EReal.coe_ne_top t), ih]

/-! ## One row -/

/-- The entry `d` of a row divided by its length, the length clamped below by `ε`. -/
def unitRow (ε : EReal) (x : ι → EReal) (d : ι) : EReal :=
  Ideal.div (x d) (max (Ideal.sqrt (∑ k, x k * x k)) ε)

/-- The dot product of a (scaled) query row with the (scaled) key `s`. -/
def score (u : ι → EReal) (kn : κ → ι → EReal) (s : κ) : EReal := ∑ d, u d * kn s d

/-- The largest score. -/
def peak (sc : κ → EReal) : EReal := Finset.univ.fold max ⊥ sc

/-- The weight of key `s`: `exp` of its score below the peak. -/
def weight (sc : κ → EReal) (s : κ) : EReal := Ideal.exp (sc s - peak sc)

/-- The total weight. -/
def mass (sc : κ → EReal) : EReal := ∑ s, weight sc s

/-- The weighted sum of the value rows, divided by the total weight afterwards. -/
def foldedAttn (sc : κ → EReal) (v : κ → ι → EReal) (c : ι) : EReal :=
  Ideal.div (∑ s, weight sc s * v s c) (mass sc)

/-- The weighted sum of the value rows with each weight divided by the total weight first. -/
def softAttn (sc : κ → EReal) (v : κ → ι → EReal) (c : ι) : EReal :=
  ∑ s, Ideal.div (weight sc s) (mass sc) * v s c

/-- A real row scaled to unit length is a real row, for a positive real clamp. -/
theorem unitRow_coe {e : ℝ} (he : 0 < e) (x : ι → ℝ) (d : ι) :
    ∃ r : ℝ, unitRow (e : EReal) (fun k => (x k : EReal)) d = (r : EReal) := by
  have h0 : ¬ (∑ k, x k * x k) < 0 := not_lt.mpr (Finset.sum_nonneg fun k _ => mul_self_nonneg (x k))
  have hm : max (Real.sqrt (∑ k, x k * x k)) e ≠ 0 := (lt_max_of_lt_right he).ne'
  refine ⟨x d * (1 / max (Real.sqrt (∑ k, x k * x k)) e), ?_⟩
  unfold unitRow
  simp only [← EReal.coe_mul, sum_coe, Ideal.sqrt_coe, if_neg h0, ← coe_max]
  rw [Ideal.div_coe hm, EReal.coe_mul]

/-- The score of a real row against real keys is real. -/
theorem score_coe (u : ι → ℝ) (kn : κ → ι → ℝ) (s : κ) :
    score (fun d => (u d : EReal)) (fun s d => (kn s d : EReal)) s = ((∑ d, u d * kn s d : ℝ) : EReal) := by
  unfold score
  simp only [← EReal.coe_mul, sum_coe]

/-- THE LAW: when every score is real, dividing the weighted sum by the total weight and weighting by the divided
    weights give the same extended real, whatever the value rows hold. -/
theorem folded_eq_soft [Nonempty κ] (sc : κ → ℝ) (v : κ → ι → EReal) (c : ι) :
    foldedAttn (fun s => (sc s : EReal)) v c = softAttn (fun s => (sc s : EReal)) v c := by
  obtain ⟨r, hr⟩ := fold_max_coe (Finset.univ : Finset κ) Finset.univ_nonempty sc
  have hw : ∀ s, weight (fun s => (sc s : EReal)) s = ((Real.exp (sc s - r) : ℝ) : EReal) := fun s => by
    unfold weight peak
    rw [hr, ← EReal.coe_sub, Ideal.exp_coe]
  have hL : mass (fun s => (sc s : EReal)) = ((∑ s, Real.exp (sc s - r) : ℝ) : EReal) := by
    unfold mass
    simp only [hw, sum_coe]
  have hpos : 0 < ∑ s, Real.exp (sc s - r) := Finset.sum_pos (fun s _ => Real.exp_pos _) Finset.univ_nonempty
  unfold foldedAttn softAttn
  rw [hL, Ideal.div_coe hpos.ne', sum_mul_coe _ _ (one_div_nonneg.mpr hpos.le)]
  refine Finset.sum_congr rfl fun s _ => ?_
  rw [Ideal.div_coe hpos.ne', mul_assoc, mul_assoc, mul_comm (v s c)]

end Cert.MemAttn

end
-- ==== Proof.Consts.lean ====
/-
  The two float constants the attention row uses, as the extended reals their bit patterns denote:
  the pattern of `-inf` is the bottom element `⊥` (so a maximum folded from it is the plain maximum), and the
  normalisation clamp (the single-precision neighbour of `1e-12`) is a positive real number. Only its sign and its
  finiteness matter: both programs spell the same pattern.
-/
import Idealize.ShloMosaic.PureOps.Ideal

noncomputable section

namespace Cert.MemAttn

open Idealize.ShloMosaic

/-- The clamp under a row's length: the value of the pattern `0x2B8CBCCC`. -/
def eps : EReal := Ideal.ofBits .f32 0x2B8CBCCC#32

/-- The pattern of `-inf` denotes the bottom element. -/
theorem ofBits_negInf : Ideal.ofBits .f32 0xFF800000#32 = ⊥ := by
  simp [Ideal.ofBits, Ideal.ieee]

/-- The clamp is a positive real number: `(2^23 + 834764) · 2^(87 - 127 - 23)`. -/
theorem eps_pos : ∃ e : ℝ, 0 < e ∧ eps = (e : EReal) := by
  refine ⟨(2 ^ 23 + 834764 : ℕ) * (2 : ℝ) ^ ((87 : ℤ) - 127 - 23), by positivity, ?_⟩
  unfold eps
  simp [Ideal.ofBits, Ideal.ieee, -EReal.coe_mul]

end Cert.MemAttn

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.RowKernel.lean ====
/-
  What the kernel body computes, entry by entry.

  From a block of 512 query rows `x0`, the scaled keys laid out feature-major `x1` (entry `(d, s)` is feature `d` of
  key `s`) and the value rows `x2`, the body stores, at `(p, c)`: the weights of row `p` against every key, times
  column `c` of the values, summed, and divided by the row's total weight — `foldedAttn` of the row's scores.
  The body is read in three layers (the scaled query block, the score block, the weight block), each a pointwise or
  row-wise expression of the one before; the two matrix products are sums over the shared index.
-/
import proofs.«145769_j35270271435273_2_alg».proof.Proof.Gen.KernelIdeal.Skeleton
import proofs.«145769_j35270271435273_2_alg».proof.Proof.Softmax
import proofs.«145769_j35270271435273_2_alg».proof.Proof.Consts
import proofs.«145769_j35270271435273_2_alg».proof.Proof.LibKeepdims
import proofs.«145769_j35270271435273_2_alg».proof.Proof.LibColumnBroadcast

noncomputable section

namespace Cert.KernelIdeal.RowValue

open Cert.KernelIdeal Cert.KernelIdeal.Gen Idealize.ShloMosaic Idealize.ShloMosaic.ValueIdx
open Cert.MemAttn Cert.MemAttn.Layout Cert.WeightUpdate.Layout

/-- The query block with every row divided by its clamped length. -/
def unitBlock (x0 : FVec Ideal S512x512 .f32) : FVec Ideal S512x512 .bf16 :=
  truncf .bf16 (divf x0 (broadcastTo S512x512 (maximumf (sqrt (shapeCast S512x1
    (multiReduction .add [1] S512 (mulf x0 x0) 0x00000000#32 reduces_S512x512_S512 (.inl rfl) rfl) shapeCasts_S512_S512x1))
    (broadcast S512x1 (Scalar.ofBits .f32 0x2B8CBCCC#32))) broadcasts_S512x1_S512x512)) bitsLt_bf16_f32

/-- The scores of the block's rows against every key. -/
def scoreBlock (x0 : FVec Ideal S512x512 .f32) (x1 : FVec Ideal S512x2048 .bf16) : FVec Ideal S512x2048 .f32 :=
  matmul dot_S512x512_S512x2048_S512x2048_1_0_0_1_n_n none (unitBlock x0)
    (shapeCast S512x2048 x1 shapeCasts_S512x2048_S512x2048) (constant S512x2048 .f32 0x00000000#32)

/-- The weights: `exp` of each score below its row's largest. -/
def weightBlock (x0 : FVec Ideal S512x512 .f32) (x1 : FVec Ideal S512x2048 .bf16) : FVec Ideal S512x2048 .f32 :=
  exp (subf (scoreBlock x0 x1) (broadcastTo S512x2048 (shapeCast S512x1
    (multiReduction .maximumf [1] S512 (scoreBlock x0 x1) 0xFF800000#32 reduces_S512x2048_S512 (.inl rfl) rfl)
    shapeCasts_S512_S512x1) broadcasts_S512x1_S512x2048))

/-- The stored value is the weights times the values, divided by the rows' total weights. -/
theorem pay_eq (x0 : FVec Ideal S512x512 .f32) (x1 : FVec Ideal S512x2048 .bf16) (x2 : FVec Ideal S2048x512 .bf16) :
    k0_pay1 x0 x1 x2 = divf (matmul dot_S512x2048_S2048x512_S512x512_1_0_0_1_n_n none
        (truncf .bf16 (weightBlock x0 x1) bitsLt_bf16_f32) (shapeCast S2048x512 x2 shapeCasts_S2048x512_S2048x512)
        (constant S512x512 .f32 0x00000000#32))
      (broadcastTo S512x512 (shapeCast S512x1
        (multiReduction .add [1] S512 (weightBlock x0 x1) 0x00000000#32 reduces_S512x2048_S512 (.inl rfl) rfl)
        shapeCasts_S512_S512x1) broadcasts_S512x1_S512x512) := rfl

/-- Row `p` of the scaled query block is row `p` of the block, scaled to unit length. -/
theorem unitBlock_apply (x0 : FVec Ideal S512x512 .f32) (p d : Fin 512) :
    unitBlock x0 (ix2 p d) = unitRow eps (fun k => x0 (ix2 p k)) d := by
  unfold unitBlock unitRow
  show Ideal.div (x0 (ix2 p d)) (broadcastTo S512x512 _ broadcasts_S512x1_S512x512 (ix2 p d)) = _
  rw [broadcastTo_a1_ab_apply]
  show Ideal.div _ (max (Ideal.sqrt (shapeCast S512x1 _ shapeCasts_S512_S512x1 (ix2 p 0))) eps) = _
  rw [shapeCast_a_a1_apply]
  exact congrArg (fun z => Ideal.div (x0 (ix2 p d)) (max (Ideal.sqrt z) eps)) (multiReduction_add_row (mulf x0 x0) _ _ _ _ p)

/-! ## The two matrix products as sums over the shared index -/

/-- The scores' product: `[512, 512] × [512, 2048]`, contracting the features. -/
abbrev dotScore := dot_S512x512_S512x2048_S512x2048_1_0_0_1_n_n
/-- The output's product: `[512, 2048] × [2048, 512]`, contracting the keys. -/
abbrev dotOut := dot_S512x2048_S2048x512_S512x512_1_0_0_1_n_n

theorem dotScore_lhs0 (i : S512x2048.Idx) (q : dotScore.contr.Idx) : (dotScore.lhsIdx i q 0).val = (i 0).val := by
  unfold DotDims.lhsIdx
  rw [dif_neg (show ¬(0 : Fin S512x512.rank) ∈ dotScore.lhsBatch by decide),
    dif_pos (show (0 : Fin S512x512.rank) ∈ dotScore.lhsNonContracting by decide)]
  rfl
theorem dotScore_lhs1 (i : S512x2048.Idx) (q : dotScore.contr.Idx) :
    (dotScore.lhsIdx i q 1).val = (q ⟨0, by decide⟩).val := dotScore.lhsIdx_val_of_single rfl i q
theorem dotScore_rhs0 (i : S512x2048.Idx) (q : dotScore.contr.Idx) :
    (dotScore.rhsIdx i q 0).val = (q ⟨0, by decide⟩).val := dotScore.rhsIdx_val_of_single rfl i q
theorem dotScore_rhs1 (i : S512x2048.Idx) (q : dotScore.contr.Idx) : (dotScore.rhsIdx i q 1).val = (i 1).val := by
  unfold DotDims.rhsIdx
  rw [dif_neg (show ¬(1 : Fin S512x2048.rank) ∈ dotScore.rhsBatch by decide),
    dif_pos (show (1 : Fin S512x2048.rank) ∈ dotScore.rhsNonContracting by decide)]
  rfl

/-- Entry `(p, s)` of the scores' product into a zero accumulator: the sum over the features. -/
theorem dotScore_apply (lhs : FVec Ideal S512x512 .bf16) (rhs : FVec Ideal S512x2048 .bf16) (p : Fin 512) (s : Fin 2048) :
    matmul dotScore none lhs rhs (constant S512x2048 .f32 0x00000000#32) (ix2 p s)
      = ∑ k : Fin 512, lhs (ix2 p k) * rhs (ix2 k s) := by
  simp only [matmul]
  rw [Ideal.matmul_constant_zero_apply, ← Equiv.sum_comp (contrEquiv1 dotScore 512 rfl rfl).symm]
  refine Finset.sum_congr rfl fun k _ => ?_
  have hk := contrEquiv1_symm_val dotScore 512 rfl rfl k
  have el : dotScore.lhsIdx (ix2 p s) ((contrEquiv1 dotScore 512 rfl rfl).symm k) = ix2 p k := funext fun a => Fin.ext (by
    match a with
    | ⟨0, _⟩ => exact dotScore_lhs0 _ _
    | ⟨1, _⟩ => exact (dotScore_lhs1 _ _).trans hk)
  have er : dotScore.rhsIdx (ix2 p s) ((contrEquiv1 dotScore 512 rfl rfl).symm k) = ix2 k s := funext fun a => Fin.ext (by
    match a with
    | ⟨0, _⟩ => exact (dotScore_rhs0 _ _).trans hk
    | ⟨1, _⟩ => exact dotScore_rhs1 _ _)
  rw [el, er]

theorem dotOut_lhs0 (i : S512x512.Idx) (q : dotOut.contr.Idx) : (dotOut.lhsIdx i q 0).val = (i 0).val := by
  unfold DotDims.lhsIdx
  rw [dif_neg (show ¬(0 : Fin S512x2048.rank) ∈ dotOut.lhsBatch by decide),
    dif_pos (show (0 : Fin S512x2048.rank) ∈ dotOut.lhsNonContracting by decide)]
  rfl
theorem dotOut_lhs1 (i : S512x512.Idx) (q : dotOut.contr.Idx) :
    (dotOut.lhsIdx i q 1).val = (q ⟨0, by decide⟩).val := dotOut.lhsIdx_val_of_single rfl i q
theorem dotOut_rhs0 (i : S512x512.Idx) (q : dotOut.contr.Idx) :
    (dotOut.rhsIdx i q 0).val = (q ⟨0, by decide⟩).val := dotOut.rhsIdx_val_of_single rfl i q
theorem dotOut_rhs1 (i : S512x512.Idx) (q : dotOut.contr.Idx) : (dotOut.rhsIdx i q 1).val = (i 1).val := by
  unfold DotDims.rhsIdx
  rw [dif_neg (show ¬(1 : Fin S2048x512.rank) ∈ dotOut.rhsBatch by decide),
    dif_pos (show (1 : Fin S2048x512.rank) ∈ dotOut.rhsNonContracting by decide)]
  rfl

/-- Entry `(p, c)` of the output's product into a zero accumulator: the sum over the keys. -/
theorem dotOut_apply (lhs : FVec Ideal S512x2048 .bf16) (rhs : FVec Ideal S2048x512 .bf16) (p c : Fin 512) :
    matmul dotOut none lhs rhs (constant S512x512 .f32 0x00000000#32) (ix2 p c)
      = ∑ k : Fin 2048, lhs (ix2 p k) * rhs (ix2 k c) := by
  simp only [matmul]
  rw [Ideal.matmul_constant_zero_apply, ← Equiv.sum_comp (contrEquiv1 dotOut 2048 rfl rfl).symm]
  refine Finset.sum_congr rfl fun k _ => ?_
  have hk := contrEquiv1_symm_val dotOut 2048 rfl rfl k
  have el : dotOut.lhsIdx (ix2 p c) ((contrEquiv1 dotOut 2048 rfl rfl).symm k) = ix2 p k := funext fun a => Fin.ext (by
    match a with
    | ⟨0, _⟩ => exact dotOut_lhs0 _ _
    | ⟨1, _⟩ => exact (dotOut_lhs1 _ _).trans hk)
  have er : dotOut.rhsIdx (ix2 p c) ((contrEquiv1 dotOut 2048 rfl rfl).symm k) = ix2 k c := funext fun a => Fin.ext (by
    match a with
    | ⟨0, _⟩ => exact (dotOut_rhs0 _ _).trans hk
    | ⟨1, _⟩ => exact dotOut_rhs1 _ _)
  rw [el, er]

/-! ## The three layers, entry by entry -/

/-- The scores of row `p`: the scaled row against each key, the keys read feature-major. -/
theorem scoreBlock_apply (x0 : FVec Ideal S512x512 .f32) (x1 : FVec Ideal S512x2048 .bf16) (p : Fin 512) (s : Fin 2048) :
    scoreBlock x0 x1 (ix2 p s) = score (unitRow eps fun k => x0 (ix2 p k)) (fun s d => x1 (ix2 d s)) s := by
  unfold scoreBlock score
  rw [shapeCast_self]
  refine (dotScore_apply _ _ p s).trans (Finset.sum_congr rfl fun k _ => ?_)
  rw [unitBlock_apply]

/-- The weights of row `p`. -/
theorem weightBlock_apply (x0 : FVec Ideal S512x512 .f32) (x1 : FVec Ideal S512x2048 .bf16) (p : Fin 512) (s : Fin 2048) :
    weightBlock x0 x1 (ix2 p s)
      = weight (score (unitRow eps fun k => x0 (ix2 p k)) (fun s d => x1 (ix2 d s))) s := by
  unfold weightBlock weight peak
  show Ideal.exp (scoreBlock x0 x1 (ix2 p s) - broadcastTo S512x2048 _ broadcasts_S512x1_S512x2048 (ix2 p s)) = _
  rw [broadcastTo_a1_ab_apply, shapeCast_a_a1_apply, scoreBlock_apply]
  refine congrArg (fun z => Ideal.exp (_ - z)) ?_
  refine (multiReduction_maximumf_row (scoreBlock x0 x1) _ _ _ _ p).trans ?_
  rw [ofBits_negInf]
  exact congrArg (fun f => (Finset.univ : Finset (Fin 2048)).fold max ⊥ f) (funext fun k => scoreBlock_apply x0 x1 p k)

/-- THE BODY'S VALUE at `(p, c)`: the weighted sum of column `c` of the values over the total weight of row `p`. -/
theorem pay_apply (x0 : FVec Ideal S512x512 .f32) (x1 : FVec Ideal S512x2048 .bf16) (x2 : FVec Ideal S2048x512 .bf16)
    (p c : Fin 512) :
    k0_pay1 (F := Ideal) x0 x1 x2 (ix2 p c)
      = foldedAttn (score (unitRow eps fun k => x0 (ix2 p k)) (fun s d => x1 (ix2 d s))) (fun s c => x2 (ix2 s c)) c := by
  rw [pay_eq]
  unfold foldedAttn mass
  show Ideal.div (matmul (F := Ideal) dotOut none _ _ _ (ix2 p c)) (broadcastTo S512x512 _ broadcasts_S512x1_S512x512 (ix2 p c)) = _
  rw [broadcastTo_a1_ab_apply, shapeCast_a_a1_apply, shapeCast_self, dotOut_apply]
  refine congr (congrArg Ideal.div (Finset.sum_congr rfl fun k _ => ?_)) ?_
  · show weightBlock x0 x1 (ix2 p k) * _ = _
    rw [weightBlock_apply]
  · refine (multiReduction_add_row (weightBlock x0 x1) _ _ _ _ p).trans (Finset.sum_congr rfl fun k _ => ?_)
    exact weightBlock_apply x0 x1 p k

end Cert.KernelIdeal.RowValue

end
-- ==== Proof.HostUnit.lean ====
/-
  A matrix normalised row by row by host operations, read at an entry.

  Both programs scale the rows of an `[n, 512]` array on the host by the same seven operations: square, sum along the
  row, take the root, clamp below by `ε`, spread the clamped length back along the row, divide. Read at `(r, d)` on
  the extended reals the result is entry `d` of row `r` scaled to unit length (`unitRow`). Stated once, for any
  number of rows, over the facts the operations cite, so that each program's copy is an instance.
-/
import Idealize.ShloMosaic.Lib.Pipeline.Value
import proofs.«145769_j35270271435273_2_alg».proof.Proof.Softmax
import proofs.«145769_j35270271435273_2_alg».proof.Proof.Consts
import proofs.«145769_j35270271435273_2_alg».proof.Proof.LibKeepdims

noncomputable section

namespace Cert.MemAttn

open Idealize.ShloMosaic Idealize.ShloMosaic.ValueIdx Cert.MemAttn.Layout

variable {n : ℕ}

/-- The rows of `X` divided by their clamped lengths, as the host computes it. -/
def hostUnit (hr : (⟨2, ![n, 512]⟩ : Shape).ReducesTo [1] ⟨1, ![n]⟩) (h0 : 0 < (⟨0, ![]⟩ : Shape).numel)
    (hb1 : (⟨1, ![n]⟩ : Shape).BroadcastsInDim ⟨2, ![n, 1]⟩ (![0] : Fin 1 → Fin 2))
    (hb2 : (⟨0, ![]⟩ : Shape).BroadcastsInDim ⟨2, ![n, 1]⟩ (![] : Fin 0 → Fin 2))
    (hb3 : (⟨2, ![n, 1]⟩ : Shape).BroadcastsInDim ⟨2, ![n, 512]⟩ (![0, 1] : Fin 2 → Fin 2))
    (X : FVec Ideal ⟨2, ![n, 512]⟩ .f32) : FVec Ideal ⟨2, ![n, 512]⟩ .f32 :=
  Host.divf X (broadcastInDim ⟨2, ![n, 512]⟩ ![0, 1] hb3
    (maximumf (Host.sqrt (broadcastInDim ⟨2, ![n, 1]⟩ ![0] hb1
        (Host.reduceAdd (mulf X X) (constant (F := Ideal) ⟨0, ![]⟩ .f32 0x00000000#32) hr h0)))
      (broadcastInDim ⟨2, ![n, 1]⟩ ![] hb2 (constant (F := Ideal) ⟨0, ![]⟩ .f32 0x2B8CBCCC#32))))

/-- Entry `(r, d)` of the normalised array is entry `d` of row `r` scaled to unit length. -/
theorem hostUnit_apply (hr : (⟨2, ![n, 512]⟩ : Shape).ReducesTo [1] ⟨1, ![n]⟩) (h0 : 0 < (⟨0, ![]⟩ : Shape).numel)
    (hb1 : (⟨1, ![n]⟩ : Shape).BroadcastsInDim ⟨2, ![n, 1]⟩ (![0] : Fin 1 → Fin 2))
    (hb2 : (⟨0, ![]⟩ : Shape).BroadcastsInDim ⟨2, ![n, 1]⟩ (![] : Fin 0 → Fin 2))
    (hb3 : (⟨2, ![n, 1]⟩ : Shape).BroadcastsInDim ⟨2, ![n, 512]⟩ (![0, 1] : Fin 2 → Fin 2))
    (hR : (⟨2, ![n, 512]⟩ : Shape).Reduces [1] ⟨1, ![n]⟩)
    (X : FVec Ideal ⟨2, ![n, 512]⟩ .f32) (r : Fin n) (d : Fin 512) :
    hostUnit hr h0 hb1 hb2 hb3 X (ix2 r d) = unitRow eps (fun k => X (ix2 r k)) d := by
  unfold hostUnit unitRow
  show Ideal.div (X (ix2 r d)) (broadcastInDim (s := ⟨2, ![n, 1]⟩) ⟨2, ![n, 512]⟩ ![0, 1] hb3 _ (ix2 r d)) = _
  rw [broadcastInDim_apply ![0, 1] hb3 _ (ix2 r d) (ix2 r (0 : Fin 1)) (fun a => match a with
    | ⟨0, _⟩ => by
      show r.val = if n = 1 then 0 else r.val
      split
      · have := r.isLt; omega
      · rfl
    | ⟨1, _⟩ => by show 0 = if (1 : Nat) = 1 then 0 else d.val; rw [if_pos rfl])]
  show Ideal.div _ (max (Ideal.sqrt (broadcastInDim (s := ⟨1, ![n]⟩) ⟨2, ![n, 1]⟩ ![0] hb1 _ (ix2 r (0 : Fin 1))))
    (broadcastInDim (s := ⟨0, ![]⟩) ⟨2, ![n, 1]⟩ ![] hb2 _ (ix2 r (0 : Fin 1)))) = _
  rw [broadcastInDim_apply ![0] hb1 _ (ix2 r (0 : Fin 1)) (ix1 r) (fun a => match a with
    | ⟨0, _⟩ => by
      show r.val = if n = 1 then 0 else r.val
      split
      · have := r.isLt; omega
      · rfl),
    broadcastInDim_apply ![] hb2 _ (ix2 r (0 : Fin 1)) ix0 (fun a => a.elim0)]
  simp only [Host.reduceAdd, Ideal.hostReduceAdd_def]
  rw [Ideal.hostReduceAdd_single hr hR]
  show Ideal.div _ (max (Ideal.sqrt (Ideal.ofBits .f32 0x00000000#32 + _)) eps) = _
  rw [Ideal.ofBits_zero_f32, zero_add]
  exact congrArg (fun z => Ideal.div (X (ix2 r d)) (max (Ideal.sqrt z) eps))
    (Finset.sum_congr rfl fun k _ => congrArg (mulf X X) (lift_row hR r k))

end Cert.MemAttn

end
-- ==== Proof.Target.lean ====
/-
  The result as ONE function of the three argument arrays.

  For queries `Q : [65536, 512]`, keys `K : [2048, 512]` and values `V : [2048, 512]`, row `n` of the result is the
  attention of the unit-length query row `n` over the unit-length keys: scores are dot products of unit rows,
  weights are `exp (score - peak)`, and column `c` of the result is the weighted sum of column `c` of `V` over the
  total weight. `attnFolded` divides the weighted sum by the total weight; `attnSoft` divides the weights first.
  For FINITE queries and keys the two arrays are equal (Softmax.lean's law, row by row): unit rows of real rows
  are real, so every score is real. The values may be anything.
-/
import Idealize.ShloMosaic.Lib.ValueIdx
import proofs.«145769_j35270271435273_2_alg».proof.Proof.Softmax
import proofs.«145769_j35270271435273_2_alg».proof.Proof.Consts

noncomputable section

namespace Cert.MemAttn

open Idealize.ShloMosaic Idealize.ShloMosaic.ValueIdx

/-- The query array's and the result's shape; the keys' and the values' shape. -/
abbrev SQ : Shape := ⟨2, ![65536, 512]⟩
abbrev SK : Shape := ⟨2, ![2048, 512]⟩

/-- The scores of query row `n` against every key, both scaled to unit length. -/
def rowScores (Q : SQ.Idx → EReal) (K : SK.Idx → EReal) (n : Fin 65536) : Fin 2048 → EReal :=
  score (unitRow eps fun j => Q (ix2 n j)) (fun s d => unitRow eps (fun j => K (ix2 s j)) d)

/-- The result, the weighted sum divided by the total weight. -/
def attnFolded (Q : SQ.Idx → EReal) (K V : SK.Idx → EReal) : SQ.Idx → EReal :=
  fun i => foldedAttn (rowScores Q K (i 0)) (fun s c => V (ix2 s c)) (i 1)

/-- The result, each weight divided by the total weight before the sum. -/
def attnSoft (Q : SQ.Idx → EReal) (K V : SK.Idx → EReal) : SQ.Idx → EReal :=
  fun i => softAttn (rowScores Q K (i 0)) (fun s c => V (ix2 s c)) (i 1)

/-- Finite queries and keys have real scores. -/
theorem rowScores_coe {Q : SQ.Idx → EReal} {K : SK.Idx → EReal} (hQ : ∀ i, ∃ r : ℝ, Q i = (r : EReal))
    (hK : ∀ i, ∃ r : ℝ, K i = (r : EReal)) (n : Fin 65536) :
    ∃ sc : Fin 2048 → ℝ, rowScores Q K n = fun s => (sc s : EReal) := by
  obtain ⟨e, he, hee⟩ := eps_pos
  choose q hq using hQ
  choose k hk using hK
  choose u hu using fun d => unitRow_coe he (fun j => q (ix2 n j)) d
  choose kn hkn using fun s d => unitRow_coe he (fun j => k (ix2 s j)) d
  refine ⟨fun s => ∑ d, u d * kn s d, funext fun s => ?_⟩
  unfold rowScores
  rw [hee]
  have e1 : (unitRow (e : EReal) fun j => Q (ix2 n j)) = fun d => (u d : EReal) := funext fun d => by
    rw [← hu d]; exact congrArg (fun f => unitRow (e : EReal) f d) (funext fun j => hq _)
  have e2 : (fun s d => unitRow (e : EReal) (fun j => K (ix2 s j)) d) = fun s d => (kn s d : EReal) :=
    funext fun s => funext fun d => by
      rw [← hkn s d]; exact congrArg (fun f => unitRow (e : EReal) f d) (funext fun j => hk _)
  rw [e1, e2]
  exact score_coe u kn s

/-- For finite queries and keys the two ways of dividing give the same array. -/
theorem attnFolded_eq_attnSoft {Q : SQ.Idx → EReal} {K : SK.Idx → EReal} (hQ : ∀ i, ∃ r : ℝ, Q i = (r : EReal))
    (hK : ∀ i, ∃ r : ℝ, K i = (r : EReal)) (V : SK.Idx → EReal) : attnFolded Q K V = attnSoft Q K V := by
  funext i
  obtain ⟨sc, hsc⟩ := rowScores_coe hQ hK (i 0)
  haveI : Nonempty (Fin 2048) := ⟨⟨0, by decide⟩⟩
  unfold attnFolded attnSoft
  rw [hsc]
  exact folded_eq_soft sc _ _

end Cert.MemAttn

end
-- ==== Proof.KernelValue.lean ====
/-
  From the kernel's blocks to its result array.

  The grid has 128 points; point `t` reads rows `512·t … 512·t + 511` of the queries, the whole key array (which the
  host wrote before the launch: the keys scaled row by row to unit length, then laid out feature-major) and the
  whole value array, and writes rows `512·t … 512·t + 511` of the result. By the body's value (RowKernel.lean) what it
  writes is the block of `attnFolded` of the three arguments on those rows; the 128 blocks tile the result, so the
  result array is `attnFolded` of the arguments.
-/
import proofs.«145769_j35270271435273_2_alg».proof.Proof.Gen.KernelIdeal.Value
import proofs.«145769_j35270271435273_2_alg».proof.Proof.RowKernel
import proofs.«145769_j35270271435273_2_alg».proof.Proof.HostUnit
import proofs.«145769_j35270271435273_2_alg».proof.Proof.Target
import Idealize.ShloMosaic.Lib.ValueLayout
import Idealize.ShloMosaic.Lib.StableHlo.Run

noncomputable section

namespace Cert.KernelIdeal.ArrayValue

open Cert.KernelIdeal Cert.KernelIdeal.Gen Cert.KernelIdeal.RowValue Idealize.ShloMosaic Idealize.ShloMosaic.TcCoe
open Idealize.SL.Sem Idealize.ShloMosaic.ValueIdx Idealize.ShloMosaic.StableHlo Cert.MemAttn
open Idealize.ShloMosaic.Pipeline (Dat)

variable (m : (ℓ : Loc nD τ sig) → Buf (Elt Ideal) ℓ) (ρ : Dev nD → PrngReg)

/-! ## The arrays the host wrote before the launch -/

/-- The key array the region finds: the unit-length keys, transposed. -/
theorem keys_eq (c : Dev nD) :
    (V m c main_v9 : S512x2048.Idx → EReal)
      = transpose S512x2048 [1, 0] (truncf .bf16 (hostUnit reducesTo_S2048x512_S2048_d1 h_S_ bcast_S2048_S2048x1_0
          bcast_S_S2048x1 bcast_S2048x1_S2048x512_0_1 (m ((c : Thread nD τ).loc main_arg1))) bitsLt_bf16_f32)
          transposes_S2048x512_S512x2048_1_0 := by
  dsimp only [Gen.V, Gen.hostOps0]; after_results; rfl

/-- Entry `(d, s)` of it is feature `d` of key `s` scaled to unit length. -/
theorem keys_apply (c : Dev nD) (d : Fin 512) (s : Fin 2048) :
    (V m c main_v9 : S512x2048.Idx → EReal) (ix2 d s)
      = unitRow eps (fun j => (m ((c : Thread nD τ).loc main_arg1) : S2048x512.Idx → EReal) (ix2 s j)) d := by
  rw [keys_eq, transpose_ix2_apply]
  exact hostUnit_apply reducesTo_S2048x512_S2048_d1 h_S_ bcast_S2048_S2048x1_0 bcast_S_S2048x1 bcast_S2048x1_S2048x512_0_1
    (by decide) _ s d

/-- The value array the region finds is the values argument (a change of float format is the identity). -/
theorem vals_eq (c : Dev nD) :
    (V m c main_v10 : S2048x512.Idx → EReal) = m ((c : Thread nD τ).loc main_arg2) := by
  dsimp only [Gen.V, Gen.hostOps0]; after_results; rfl

/-! ## The blocks -/

theorem zero_offsets : (![0, 0] : Fin 2 → Nat) = fun _ => 0 := funext fun a => by fin_cases a <;> rfl

/-- The printed index maps over the grid: the query and result windows are at block row `t`, the key and value windows
    do not move. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 128 := by
  have h := t.isLt
  have hN : cfg0.N = 128 := N_0
  omega

/-- Row `p` of block `t` is row `512·t + p` of the array. -/
def rowOf (t : Fin cfg0.N) (p : Fin 512) : Fin 65536 := ⟨t.val * 512 + p.val, by have := point_lt t; have := p.isLt; omega⟩

/-- The query block at point `t`, read at `(p, k)`. -/
theorem query_block (c : Dev nD) (t : Fin cfg0.N) (p k : Fin 512) :
    iblk m c 0 t (ix2 p k) = (V m c main_arg0 : S65536x512.Idx → EReal) (ix2 (rowOf t p) k) := by
  obtain ⟨e0, e1, -⟩ := block_rows t
  show (V m c main_arg0 : S65536x512.Idx → EReal) (((cfg0.win 0).blk t).view.emb (ix2 p k)) = _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * k.val = k.val; omega

/-- The key block at any point is the whole key array. -/
theorem key_block (c : Dev nD) (t : Fin cfg0.N) (d : Fin 512) (s : Fin 2048) :
    iblk m c 1 t (ix2 d s) = (V m c main_v9 : S512x2048.Idx → EReal) (ix2 d s) := by
  obtain ⟨-, -, e0, e1, -⟩ := block_rows t
  show (V m c main_v9 : S512x2048.Idx → EReal) (((cfg0.win 1).blk t).view.emb (ix2 d s)) = _
  refine congrArg _ (funext fun a => Fin.ext ?_)
  match a with
  | ⟨0, _⟩ => show win0_1.index t (0 : Fin 2) * 512 + 1 * d.val = d.val; omega
  | ⟨1, _⟩ => show win0_1.index t (1 : Fin 2) * 2048 + 1 * s.val = s.val; omega

/-- The value block at any point is the whole value array. -/
theorem value_block (c : Dev nD) (t : Fin cfg0.N) (s : Fin 2048) (k : Fin 512) :
    iblk m c 2 t (ix2 s k) = (V m c main_v10 : S2048x512.Idx → EReal) (ix2 s k) := by
  obtain ⟨-, -, -, -, e0, e1, -⟩ := block_rows t
  show (V m c main_v10 : S2048x512.Idx → EReal) (((cfg0.win 2).blk t).view.emb (ix2 s k)) = _
  refine congrArg _ (funext fun a => Fin.ext ?_)
  match a with
  | ⟨0, _⟩ => show win0_2.index t (0 : Fin 2) * 2048 + 1 * s.val = s.val; omega
  | ⟨1, _⟩ => show win0_2.index t (1 : Fin 2) * 512 + 1 * k.val = k.val; omega

/-- The result block's entry `(p, k)` sits at `(512·t + p, k)` of the result array. -/
theorem result_block (t : Fin cfg0.N) (p k : Fin 512) :
    ((cfg0.win 3).blk t).view.emb (ix2 p k) = (ix2 (rowOf t p) k : S65536x512.Idx) := by
  obtain ⟨-, -, -, -, -, -, e0, e1⟩ := block_rows t
  refine funext fun a => Fin.ext ?_
  match a with
  | ⟨0, _⟩ => show win0_3.index t (0 : Fin 2) * 512 + 1 * p.val = t.val * 512 + p.val; omega
  | ⟨1, _⟩ => show win0_3.index t (1 : Fin 2) * 512 + 1 * k.val = k.val; omega

/-- WHAT POINT `t` WRITES BACK is block `t` of `attnFolded` of the three arguments. -/
theorem flushed_eq (c : Dev nD) (t : Fin cfg0.N) :
    (dats m 0 c).flushed 3 t = ((cfg0.win 3).blk t).view.read (Elt Ideal)
      (attnFolded (m ((c : Thread nD τ).loc main_arg0)) (m ((c : Thread nD τ).loc main_arg1)) (m ((c : Thread nD τ).loc main_arg2))) := by
  rw [Value.flushed3]
  unfold out0_3
  rw [View.canon_unit_zero zero_offsets]
  simp only [View.ld_unit_zero (S := S512x512) zero_offsets, View.ld_unit_zero (S := S512x2048) zero_offsets,
    View.ld_unit_zero (S := S2048x512) zero_offsets]
  funext j
  obtain ⟨p, k, rfl⟩ : ∃ (p k : Fin 512), j = ix2 p k := ⟨j 0, j 1, eq_ix2 j⟩
  show k0_pay1 (F := Ideal) (iblk m c 0 t) (iblk m c 1 t) (iblk m c 2 t) (ix2 p k)
    = attnFolded _ _ _ (((cfg0.win 3).blk t).view.emb (ix2 p k))
  refine (pay_apply (iblk m c 0 t) (iblk m c 1 t) (iblk m c 2 t) p k).trans ?_
  rw [result_block]
  unfold attnFolded rowScores
  have hq : (fun j => iblk m c 0 t (ix2 p j)) = fun j => (m ((c : Thread nD τ).loc main_arg0) : S65536x512.Idx → EReal) (ix2 (rowOf t p) j) :=
    funext fun j => (query_block m c t p j).trans (congrFun (V_main_arg0 m c) _)
  have hk : (fun (s : Fin 2048) (d : Fin 512) => iblk m c 1 t (ix2 d s))
      = fun s d => unitRow eps (fun j => (m ((c : Thread nD τ).loc main_arg1) : S2048x512.Idx → EReal) (ix2 s j)) d :=
    funext fun s => funext fun d => (key_block m c t d s).trans (keys_apply m c d s)
  have hv : (fun (s : Fin 2048) (k : Fin 512) => iblk m c 2 t (ix2 s k))
      = fun s k => (m ((c : Thread nD τ).loc main_arg2) : S2048x512.Idx → EReal) (ix2 s k) :=
    funext fun s => funext fun k => (value_block m c t s k).trans (congrFun (vals_eq m c) _)
  rw [hq, hk, hv]

/-! ## The cover and the run -/

/-- An index of the result is in point `t`'s block iff each coordinate is in the block's range on its axis. -/
theorem mem_block (t : Fin cfg0.N) (i : S65536x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v11).slice (win0_3.rect t)).set ↔ _
  rw [View.set_slice_whole, Rect.mem_set_unit]
  exact Iff.rfl

/-- Every index of the result is in the block of the point its row falls in. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 128 := N_0
  let t : Fin cfg0.N := ⟨(i 0).val / 512, by omega⟩
  have ht : t.val = (i 0).val / 512 := rfl
  obtain ⟨-, -, -, -, -, -, e0, e1⟩ := block_rows t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- THE RESULT ARRAY after the run. -/
theorem final (c : Dev nD) :
    (dats m 0 c).arrAt 3 cfg0.N
      = attnFolded (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result at `attnFolded` of the arguments, the
    arguments unchanged. -/
theorem run : θ_run defs (onTc (τ := τ) (main (F := Ideal))) ⟨m, fun _ => 0, ρ⟩ fun r => ∀ c : Dev nD,
      r.2.mem ((c : Thread nD τ).loc main_v11)
        = attnFolded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.Reference.lean ====
/-
  The reference's result is `attnSoft` of its three arguments.

  The reference scales the rows of the queries and of the keys on the host, takes their dot products, subtracts each
  row's maximum (folded from `-inf`, then compared with `-inf` once more, which changes nothing), exponentiates,
  divides each weight by its row's sum, and multiplies the divided weights into the values. Read one operation at a
  time, at `(n, c)`, that is `softAttn` of the scores of row `n`.
-/
import proofs.«145769_j35270271435273_2_alg».proof.Proof.Gen.ReferenceIdeal.Read
import proofs.«145769_j35270271435273_2_alg».proof.Proof.HostUnit
import proofs.«145769_j35270271435273_2_alg».proof.Proof.Target

noncomputable section

namespace Cert.ReferenceIdeal.RefValue

open Cert.ReferenceIdeal Cert.ReferenceIdeal.Gen Cert.ReferenceIdeal.Read Idealize.ShloMosaic Idealize.ShloMosaic.ValueIdx
open Cert.MemAttn Cert.MemAttn.Layout

variable (x0 : (⟨S65536x512, .f32⟩ : BufTy).Contents (Elt Ideal)) (x1 x2 : (⟨S2048x512, .f32⟩ : BufTy).Contents (Elt Ideal))

/-- The scaled queries at `(n, d)`. -/
theorem unitQ (n : Fin 65536) (d : Fin 512) :
    val_main_v7 (F := Ideal) x0 (ix2 n d) = unitRow eps (fun j => x0 (ix2 n j)) d :=
  hostUnit_apply reducesTo_S65536x512_S65536_d1 h_S_ bcast_S65536_S65536x1_0 bcast_S_S65536x1 bcast_S65536x1_S65536x512_0_1
    (by decide) x0 n d

/-- The scaled keys at `(s, d)`. -/
theorem unitK (s : Fin 2048) (d : Fin 512) :
    val_main_v15 (F := Ideal) x1 (ix2 s d) = unitRow eps (fun j => x1 (ix2 s j)) d :=
  hostUnit_apply reducesTo_S2048x512_S2048_d1 h_S_ bcast_S2048_S2048x1_0 bcast_S_S2048x1 bcast_S2048x1_S2048x512_0_1
    (by decide) x1 s d

/-- The scores at `(n, s)`. -/
theorem scores_apply (n : Fin 65536) (s : Fin 2048) :
    val_main_v16 (F := Ideal) x0 x1 (ix2 n s) = rowScores x0 x1 n s := by
  rw [val_main_v16_apply]
  unfold rowScores score
  refine Finset.sum_congr rfl fun k _ => ?_
  have el : lidx_main_v16 (ix2 n s) k = ix2 n k :=
    funext fun a => Fin.ext (by match a with | ⟨0, _⟩ => rfl | ⟨1, _⟩ => rfl)
  have er : ridx_main_v16 (ix2 n s) k = ix2 s k :=
    funext fun a => Fin.ext (by match a with | ⟨0, _⟩ => rfl | ⟨1, _⟩ => rfl)
  rw [el, er, unitQ, unitK]

/-- The row maxima at `n`: the largest score of row `n`. -/
theorem peak_apply (n : Fin 65536) : val_main_v19 (F := Ideal) x0 x1 (ix1 n) = peak (rowScores x0 x1 n) := by
  rw [val_main_v19_apply, val_main_v18_apply, val_main_cst_4_apply]
  unfold val_main_v17 peak
  rw [Host.reduce_eq_fold_single FloatOps.maximumf _ _ reducesTo_S65536x2048_S65536_d1 (by decide) h_S_]
  show max (Ideal.ofBits .f32 0xFF800000#32) (Finset.fold max (Ideal.ofBits .f32 0xFF800000#32) _ _) = _
  rw [ofBits_negInf, max_eq_right bot_le]
  exact congrArg (fun f => (Finset.univ : Finset (Fin 2048)).fold max ⊥ f)
    (funext fun k => (congrArg (val_main_v16 (F := Ideal) x0 x1) (lift_row _ n k)).trans (scores_apply x0 x1 n k))

/-- The weights at `(n, s)`. -/
theorem weight_apply (n : Fin 65536) (s : Fin 2048) :
    val_main_v23 (F := Ideal) x0 x1 (ix2 n s) = weight (rowScores x0 x1 n) s := by
  rw [val_main_v23_apply, val_main_v22_apply, val_main_v21_apply, val_main_v20_apply, scores_apply]
  have e : idx_main_v20 (idx_main_v21 (ix2 n s)) = ix1 n :=
    funext fun a => Fin.ext (by match a with | ⟨0, _⟩ => rfl)
  rw [e, peak_apply]
  rfl

/-- The total weights at `n`. -/
theorem mass_apply (n : Fin 65536) : val_main_v24 (F := Ideal) x0 x1 (ix1 n) = mass (rowScores x0 x1 n) := by
  rw [val_main_v24_apply, val_main_cst_5_apply]
  unfold mass
  show Ideal.ofBits .f32 0x00000000#32 + _ = _
  rw [Ideal.ofBits_zero_f32, zero_add]
  refine Finset.sum_congr rfl fun k _ => ?_
  have e : idx_main_v24 (ix1 n) k = ix2 n k :=
    funext fun a => Fin.ext (by match a with | ⟨0, _⟩ => rfl | ⟨1, _⟩ => rfl)
  rw [e, weight_apply]

/-- THE REFERENCE'S VALUE: `attnSoft` of the arguments. -/
theorem result_eq : val_main_v28 (F := Ideal) x0 x1 x2 = attnSoft x0 x1 x2 := by
  funext i
  obtain ⟨n, c, rfl⟩ : ∃ (n : Fin 65536) (c : Fin 512), i = ix2 n c := ⟨i 0, i 1, eq_ix2 i⟩
  rw [val_main_v28_apply]
  unfold attnSoft softAttn
  refine Finset.sum_congr rfl fun k _ => ?_
  have el : lidx_main_v28 (ix2 n c) k = ix2 n k :=
    funext fun a => Fin.ext (by match a with | ⟨0, _⟩ => rfl | ⟨1, _⟩ => rfl)
  have er : ridx_main_v28 (ix2 n c) k = ix2 k c :=
    funext fun a => Fin.ext (by match a with | ⟨0, _⟩ => rfl | ⟨1, _⟩ => rfl)
  have em : idx_main_v25 (idx_main_v26 (ix2 n k)) = ix1 n :=
    funext fun a => Fin.ext (by match a with | ⟨0, _⟩ => rfl)
  rw [el, er, val_main_v27_apply, val_main_v26_apply, val_main_v25_apply, em, weight_apply, mass_apply]
  rfl

end Cert.ReferenceIdeal.RefValue

end
-- ==== Proof.Finite.lean ====
/-
  What the precondition says: every query and key entry is a real number.

  The precondition compares the absolute value of every input entry with `+inf` and asks all comparisons to hold.
  On the extended reals `|x| < ⊤` holds exactly when `x` is neither infinity, that is, a real number. Only the
  queries and the keys are used: the values may be anything for the two programs to agree.
-/
import proofs.«145769_j35270271435273_2_alg».proof.Pre_finite_inputs
import proofs.«145769_j35270271435273_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.MemAttn

open Idealize.ShloMosaic

/-- An extended real whose absolute value is below `+inf` is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

instance : Subsingleton Cert.Pre_finite_inputs.S_.Idx := ⟨fun a b => funext fun d => d.elim0⟩

/-- Under the precondition the queries and the keys are real, entry by entry. -/
theorem real_of_pre (Q : FVec Ideal Cert.Pre_finite_inputs.S65536x512 .f32) (K V : FVec Ideal Cert.Pre_finite_inputs.S2048x512 .f32)
    (h : Cert.Pre_finite_inputs.fn (F := Ideal) Q K V = fun _ => 1#1) :
    (∀ i, ∃ r : ℝ, Q i = (r : EReal)) ∧ (∀ i, ∃ r : ℝ, K i = (r : EReal)) := by
  have h0 := congrFun h ValueIdx.ix0
  dsimp only [Cert.Pre_finite_inputs.fn] at h0
  obtain ⟨h1, -⟩ := IntOp.andi_eq_one.1 h0
  obtain ⟨hq, hk⟩ := IntOp.andi_eq_one.1 h1
  exact ⟨fun i => real_of_abs_lt _ (Host.reduce_andi_all _ _ _ _ _ hq i),
    fun i => real_of_abs_lt _ (Host.reduce_andi_all _ _ _ _ _ hk i)⟩

end Cert.MemAttn

end
-- ==== Proof.lean ====
/-
  Attention of 65536 query rows over a memory of 2048 key / value rows: the tiled kernel against the whole-array
  reference, as functions on the extended reals.

  Both programs scale every query row and every key row to unit length (the length clamped below by the same small
  constant), score each query against each key by a dot product, subtract the row's largest score, exponentiate, and
  combine the value rows with the resulting weights. They differ in where the division by the total weight `L` of a
  row happens: the kernel computes `(∑ₛ wₛ · vₛ) / L` on each block of 512 rows, the reference `∑ₛ (wₛ / L) · vₛ` on the
  whole array. Over the extended reals these agree once the scores are real numbers: then the largest score is real,
  every weight is a positive real, `L` is a positive real, dividing by `L` is multiplying by the nonnegative real
  `1 / L`, and such a factor moves through a finite sum whatever the summands are (Softmax.lean). The scores are real
  because the precondition makes the queries and keys finite (Finite.lean) and a finite row scaled by its clamped
  length is finite. The values are never assumed finite.

  The kernel's result array is read off its run block by block (KernelValue.lean, over RowKernel.lean's entry-by-entry
  reading of the body and HostUnit.lean's reading of the host's row scaling, which writes the key operand before the
  launch); the reference's result is read one operation at a time (Reference.lean). Nothing was rewritten between
  the kernel and its idealization, so that conjunct is trivial; the three runs' termination and unchanged arguments
  are the runs themselves.
-/
import proofs.«145769_j35270271435273_2_alg».proof.Defs
import proofs.«145769_j35270271435273_2_alg».proof.Proof.Gen.Kernel
import proofs.«145769_j35270271435273_2_alg».proof.Proof.Gen.Kernel.Skeleton
import proofs.«145769_j35270271435273_2_alg».proof.Proof.Gen.Kernel.Launch
import proofs.«145769_j35270271435273_2_alg».proof.Proof.Gen.Kernel.Points
import proofs.«145769_j35270271435273_2_alg».proof.Proof.Gen.Kernel.Frame
import proofs.«145769_j35270271435273_2_alg».proof.Proof.Gen.KernelIdeal
import proofs.«145769_j35270271435273_2_alg».proof.Proof.Gen.KernelIdeal.Skeleton
import proofs.«145769_j35270271435273_2_alg».proof.Proof.Gen.KernelIdeal.Launch
import proofs.«145769_j35270271435273_2_alg».proof.Proof.Gen.KernelIdeal.Points
import proofs.«145769_j35270271435273_2_alg».proof.Proof.Gen.KernelIdeal.Frame
import proofs.«145769_j35270271435273_2_alg».proof.Proof.Gen.ReferenceIdeal
import proofs.«145769_j35270271435273_2_alg».proof.Proof.Gen.Pre_finite_inputs
import proofs.«145769_j35270271435273_2_alg».proof.Proof.Gen.KernelIdeal.Value
import proofs.«145769_j35270271435273_2_alg».proof.Proof.Gen.ReferenceIdeal.Run
import proofs.«145769_j35270271435273_2_alg».proof.Proof.Gen.ReferenceIdeal.Read
import proofs.«145769_j35270271435273_2_alg».proof.Proof.KernelValue
import proofs.«145769_j35270271435273_2_alg».proof.Proof.Reference
import proofs.«145769_j35270271435273_2_alg».proof.Proof.Finite
import Idealize.ShloMosaic.Adequacy
import Idealize.ShloMosaic.Init

noncomputable section

namespace Cert.Proof

open Idealize.ShloMosaic Idealize.ShloMosaic.TcCoe Idealize.SL.Sem Cert.MemAttn

/-- The word-level kernel terminates and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments, finite queries and keys, both programs end with the same array:
    the kernel's `attnFolded` of the arguments is the reference's `attnSoft` of them. -/
theorem algebraic : Cert.algebraic_KernelIdeal_ReferenceIdeal := by
  intro m ρ m' ρ' hpre hagree
  refine ⟨fun c => attnFolded (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  obtain ⟨hQ, hK⟩ := real_of_pre _ _ _ (hpre c)
  rw [(h c).1, Cert.ReferenceIdeal.Read.val_main_v28_eq, Cert.ReferenceIdeal.RefValue.result_eq,
    (hagree c).1, (hagree c).2.1, (hagree c).2.2]
  exact (attnFolded_eq_attnSoft hQ hK _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
